-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x768 : Shape := ⟨3, ![8, 2048, 768]⟩
abbrev S1024x768 : Shape := ⟨2, ![1024, 768]⟩
abbrev S_ : Shape := ⟨0, ![]⟩

class Facts : Prop where
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel
  bcast_S_S1024x768 : S_.BroadcastsInDim S1024x768 (![] : Fin 0 → Fin S1024x768.rank)
  reducesTo_S1024x768_S_d0_1 : S1024x768.ReducesTo [0, 1] S_

variable [Facts]

def fn {F : FTy → Type} [FloatOps F] (main_arg0 : FVec F S8x2048x768 .f32) (main_arg1 : FVec F S1024x768 .f32) : IVec S_ 1 :=
  let main_v0 : FVec F S8x2048x768 .f32 := Host.absf main_arg0
  let main_cst : FVec F S_ .f32 := constant S_ .f32 0x7F800000#32
  let main_v1 : FVec F S8x2048x768 .f32 := broadcastInDim S8x2048x768 ![] bcast_S_S8x2048x768 main_cst
  let main_v2 : IVec S8x2048x768 1 := cmpf .olt main_v0 main_v1
  let main_c : IVec S_ 1 := constantI S_ 1 1#1
  let main_v3 : IVec S_ 1 := (fun x v => Host.reduce IntOp.andi x v reducesTo_S8x2048x768_S_d0_1_2 h_S_) main_v2 main_c
  let main_v4 : FVec F S1024x768 .f32 := Host.absf main_arg1
  let main_cst_0 : FVec F S_ .f32 := constant S_ .f32 0x7F800000#32
  let main_v5 : FVec F S1024x768 .f32 := broadcastInDim S1024x768 ![] bcast_S_S1024x768 main_cst_0
  let main_v6 : IVec S1024x768 1 := cmpf .olt main_v4 main_v5
  let main_c_1 : IVec S_ 1 := constantI S_ 1 1#1
  let main_v7 : IVec S_ 1 := (fun x v => Host.reduce IntOp.andi x v reducesTo_S1024x768_S_d0_1 h_S_) main_v6 main_c_1
  let main_v8 : IVec S_ 1 := andi main_v3 main_v7
  main_v8
-- ==== Kernel.lean ====
abbrev S8x2048x768 : Shape := ⟨3, ![8, 2048, 768]⟩
abbrev S1024x768 : Shape := ⟨2, ![1024, 768]⟩
abbrev S16384x768 : Shape := ⟨2, ![16384, 768]⟩
abbrev S_ : Shape := ⟨0, ![]⟩
abbrev S1024 : Shape := ⟨1, ![1024]⟩
abbrev S1x1024 : Shape := ⟨2, ![1, 1024]⟩
abbrev S16384x1024 : Shape := ⟨2, ![16384, 1024]⟩
abbrev S1024x1024 : Shape := ⟨2, ![1024, 1024]⟩
abbrev S1024x1 : Shape := ⟨2, ![1024, 1]⟩
abbrev S8x2048x1024 : Shape := ⟨3, ![8, 2048, 1024]⟩

abbrev nBuf : Space → Nat
  | .hbm => 10
  | .vmem => 6
  | .smem => 0
  | _ => 0

abbrev bufTy : (tb : Table) → Fin (tcTables nBuf tb) → BufTy
  | .hbm, ⟨0, _⟩ => ⟨S8x2048x768, .f32⟩
  | .hbm, ⟨1, _⟩ => ⟨S1024x768, .f32⟩
  | .hbm, ⟨2, _⟩ => ⟨S16384x768, .f32⟩
  | .hbm, ⟨3, _⟩ => ⟨S1024x768, .f32⟩
  | .hbm, ⟨4, _⟩ => ⟨S_, .f32⟩
  | .hbm, ⟨5, _⟩ => ⟨S1024, .f32⟩
  | .hbm, ⟨6, _⟩ => ⟨S1x1024, .f32⟩
  | .hbm, ⟨7, _⟩ => ⟨S1024x768, .bf16⟩
  | .hbm, ⟨8, _⟩ => ⟨S16384x1024, .f32⟩
  | .hbm, ⟨9, _⟩ => ⟨S8x2048x1024, .f32⟩
  | .local _ .vmem, ⟨0, _⟩ => ⟨S1024x768, .f32⟩
  | .local _ .vmem, ⟨1, _⟩ => ⟨S1024x768, .f32⟩
  | .local _ .vmem, ⟨2, _⟩ => ⟨S1024x768, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x2048x768_S16384x768 : S8x2048x768.ShapeCasts S16384x768
  reducesTo_S1024x768_S1024_d1 : S1024x768.ReducesTo [1] S1024
  h_S_ : 0 < S_.numel
  bcast_S1024_S1x1024_1 : S1024.BroadcastsInDim S1x1024 (![1] : Fin 1 → Fin S1x1024.rank)
  bitsLt_bf16_f32 : FTy.bits .bf16 < FTy.bits .f32
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  reduces_S1024x768_S1024 : S1024x768.Reduces [1] S1024
  shapeCasts_S1024_S1024x1 : S1024.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S16384x1024_S8x2048x1024 : S16384x1024.ShapeCasts S8x2048x1024
  dot_S1024x768_S1024x768_S1024x1024_1_1_0_0_n_n_wf : DotDims.WF S1024x768 S1024x768 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S16384x768.size a
  hwx0_0 : ∀ i : grid0.Coords, EltTy.bits .f32 = 32 ∨ (Rect.block (s := S16384x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S1024x768.size a
  hwx0_1 : ∀ i : grid0.Coords, EltTy.bits .bf16 = 32 ∨ (Rect.block (s := S1024x768) S1024x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .f32 = 32 ∨ (Rect.block (s := S16384x1024) S1024x1024.size (cc0_transform_3 i) (hinb0_3 i)).WholeWords (EltTy.packing .f32)

variable [Facts₀]

def dot_S1024x768_S1024x768_S1024x1024_1_1_0_0_n_n : DotDims S1024x768 S1024x768 S1024x1024 where
  lhsContracting := [1]
  rhsContracting := [1]
  lhsNonContracting := [0]
  rhsNonContracting := [0]
  lhsBatch := []
  rhsBatch := []
  wf := dot_S1024x768_S1024x768_S1024x1024_1_1_0_0_n_n_wf

abbrev win0_0 : Pipeline.Window sig grid0 :=
  Pipeline.Window.ofSpec (Memref.whole main_v0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x768 : Shape := ⟨3, ![8, 2048, 768]⟩
abbrev S1024x768 : Shape := ⟨2, ![1024, 768]⟩
abbrev S_ : Shape := ⟨0, ![]⟩
abbrev S8x2048 : Shape := ⟨2, ![8, 2048]⟩
abbrev S8x2048x1 : Shape := ⟨3, ![8, 2048, 1]⟩
abbrev S1024 : Shape := ⟨1, ![1024]⟩
abbrev S8x2048x1024 : Shape := ⟨3, ![8, 2048, 1024]⟩
abbrev S1x1x1024 : Shape := ⟨3, ![1, 1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8x2048x768, .f32⟩
  | .hbm, ⟨1, _⟩ => ⟨S1024x768, .f32⟩
  | .hbm, ⟨2, _⟩ => ⟨S8x2048x768, .f32⟩
  | .hbm, ⟨3, _⟩ => ⟨S_, .f32⟩
  | .hbm, ⟨4, _⟩ => ⟨S8x2048, .f32⟩
  | .hbm, ⟨5, _⟩ => ⟨S8x2048x1, .f32⟩
  | .hbm, ⟨6, _⟩ => ⟨S1024x768, .f32⟩
  | .hbm, ⟨7, _⟩ => ⟨S_, .f32⟩
  | .hbm, ⟨8, _⟩ => ⟨S1024, .f32⟩
  | .hbm, ⟨9, _⟩ => ⟨S8x2048x1024, .f32⟩
  | .hbm, ⟨10, _⟩ => ⟨S1x1x1024, .f32⟩
  | .hbm, ⟨11, _⟩ => ⟨S8x2048x1024, .f32⟩
  | .hbm, ⟨12, _⟩ => ⟨S8x2048x1024, .f32⟩
  | .hbm, ⟨13, _⟩ => ⟨S8x2048x1024, .f32⟩
  | .hbm, ⟨14, _⟩ => ⟨S_, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S8x2048x768_S8x2048_d2 : S8x2048x768.ReducesTo [2] S8x2048
  h_S_ : 0 < S_.numel
  bcast_S8x2048_S8x2048x1_0_1 : S8x2048.BroadcastsInDim S8x2048x1 (![0, 1] : Fin 2 → Fin S8x2048x1.rank)
  reducesTo_S1024x768_S1024_d1 : S1024x768.ReducesTo [1] S1024
  bcast_S1024_S1x1x1024_2 : S1024.BroadcastsInDim S1x1x1024 (![2] : Fin 1 → Fin S1x1x1024.rank)
  bcast_S8x2048x1_S8x2048x1024_0_1_2 : S8x2048x1.BroadcastsInDim S8x2048x1024 (![0, 1, 2] : Fin 3 → Fin S8x2048x1024.rank)
  bcast_S1x1x1024_S8x2048x1024_0_1_2 : S1x1x1024.BroadcastsInDim S8x2048x1024 (![0, 1, 2] : Fin 3 → Fin S8x2048x1024.rank)
  bcast_S_S8x2048x1024 : S_.BroadcastsInDim S8x2048x1024 (![] : Fin 0 → Fin S8x2048x1024.rank)
  dot_S8x2048x768_S1024x768_S8x2048x1024_2_1_01_0_n_n_wf : DotDims.WF S8x2048x768 S1024x768 S8x2048x1024 [2] [1] [0, 1] [0] [] []

variable [Facts₀]

def dot_S8x2048x768_S1024x768_S8x2048x1024_2_1_01_0_n_n : DotDims S8x2048x768 S1024x768 S8x2048x1024 where
  lhsContracting := [2]
  rhsContracting := [1]
  lhsNonContracting := [0, 1]
  rhsNonContracting := [0]
  lhsBatch := []
  rhsBatch := []
  wf := dot_S8x2048x768_S1024x768_S8x2048x1024_2_1_01_0_n_n_wf

class Facts : Prop extends Facts₀ where

variable [Facts]
-- ==== Proof.LibKeepdims.lean ====
/-
  Two layout operations read at an index given by coordinates, for a row reduction that keeps its axis
  (`sum(..., axis=-1, keepdims=True)`): the reduced vector `[a]` is first viewed as a column `[a, 1]`, and the column is
  then broadcast along the second axis to `[a, b]`. At `(p, c)` both read the vector's entry `p`: a row-major position in
  `[a, 1]` is the row number itself, and a broadcast reads coordinate `0` on the operand's unit axis whatever `c` is.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit coordinate `u`:
    the row-major position of `(p, u)` in `[a, 1]` is `p · 1 + u = p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry `p`: the first axis is kept (also when
    `a = 1`, where the only row is row `0`), the second is the operand's unit axis and reads `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Spec.lean ====
/-
  The squared distance from every input row to every prototype, written once, as the function both programs compute.

  For an input `x` of 8 × 2048 rows of length 768 and a codebook `p` of 1024 prototypes of length 768, the result at
  (b, t, q) is

      (Σ_k x[b,t,k]²  +  Σ_k p[q,k]²)  −  2 · Σ_k x[b,t,k] · p[q,k],

  the expansion of ‖x[b,t] − p[q]‖² that neither program simplifies: both keep this grouping and this order of the three
  terms, and the factor 2 is the same word on both sides, so nothing here depends on what that word denotes.

  The kernel works on the input flattened to 16384 rows and is handed the prototypes' squared norms as a row computed
  beforehand; `rowDist` is the same expression over those three arrays. The two agree where row `b · 2048 + t` of the
  flattened input is row (b, t) of `x` and the row of norms holds `0 + Σ_k p[q,k]²` (a sum that starts from the zero word):
  `rowDist_eq_sqDist`. Adding zero is the only law used; it holds at every extended real, so no finiteness is needed.
-/
import Idealize.ShloMosaic.PureOps.Ideal.Laws
import Idealize.ShloMosaic.Lib.ValueIdx

noncomputable section

open scoped BigOperators

namespace Cert.Dist

open Idealize.ShloMosaic Idealize.ShloMosaic.ValueIdx

/-- The factor of the cross term, as the word both programs carry. -/
abbrev two : EReal := Ideal.ofBits .f32 0x40000000#32

/-- Over the flattened input `A0` (16384 rows), the codebook `A1` and the row `A2` of the prototypes' squared norms: row
    `i 0` against prototype `i 1`. -/
def rowDist (A0 : (⟨2, ![16384, 768]⟩ : Shape).Idx → EReal) (A1 : (⟨2, ![1024, 768]⟩ : Shape).Idx → EReal)
    (A2 : (⟨2, ![1, 1024]⟩ : Shape).Idx → EReal) (i : (⟨2, ![16384, 1024]⟩ : Shape).Idx) : EReal :=
  ((∑ k : Fin 768, A0 (ix2 (i 0) k) * A0 (ix2 (i 0) k)) + A2 (ix2 (0 : Fin 1) (i 1)))
    - two * ∑ k : Fin 768, A0 (ix2 (i 0) k) * A1 (ix2 (i 1) k)

/-- THE RESULT: row (`i 0`, `i 1`) of the input against prototype `i 2`. -/
def sqDist (x : (⟨3, ![8, 2048, 768]⟩ : Shape).Idx → EReal) (p : (⟨2, ![1024, 768]⟩ : Shape).Idx → EReal)
    (i : (⟨3, ![8, 2048, 1024]⟩ : Shape).Idx) : EReal :=
  ((∑ k : Fin 768, x (ix3 (i 0) (i 1) k) * x (ix3 (i 0) (i 1) k)) + ∑ k : Fin 768, p (ix2 (i 2) k) * p (ix2 (i 2) k))
    - two * ∑ k : Fin 768, x (ix3 (i 0) (i 1) k) * p (ix2 (i 2) k)

/-- The tile form at `i` is the result at `j` once the three arrays the kernel is handed are read back to `x` and `p`: the
    flattened row is `x`'s row (`h0`), the codebook is `p` (`h1`), and the norm entry is the prototype's sum of squares
    started from the zero word (`h2`), which adds nothing. -/
theorem rowDist_eq_sqDist (A0 : (⟨2, ![16384, 768]⟩ : Shape).Idx → EReal) (A1 : (⟨2, ![1024, 768]⟩ : Shape).Idx → EReal)
    (A2 : (⟨2, ![1, 1024]⟩ : Shape).Idx → EReal) (x : (⟨3, ![8, 2048, 768]⟩ : Shape).Idx → EReal)
    (p : (⟨2, ![1024, 768]⟩ : Shape).Idx → EReal) (i : (⟨2, ![16384, 1024]⟩ : Shape).Idx) (j : (⟨3, ![8, 2048, 1024]⟩ : Shape).Idx)
    (h0 : ∀ k : Fin 768, A0 (ix2 (i 0) k) = x (ix3 (j 0) (j 1) k))
    (h1 : ∀ k : Fin 768, A1 (ix2 (i 1) k) = p (ix2 (j 2) k))
    (h2 : A2 (ix2 (0 : Fin 1) (i 1)) = Ideal.ofBits .f32 0x00000000#32 + ∑ k : Fin 768, p (ix2 (j 2) k) * p (ix2 (j 2) k)) :
    rowDist A0 A1 A2 i = sqDist x p j := by
  unfold rowDist sqDist
  rw [h2, Ideal.ofBits_zero_f32, zero_add]
  simp only [h0, h1]

end Cert.Dist

end
-- ==== Proof.Payload.lean ====
/-
  The kernel body at one element. A grid point holds a tile `x0` of 1024 rows of the (flattened) input, the whole codebook
  `x1` (one row per prototype) and the row `x2` of the prototypes' squared norms, and stores one value per
  (row `r`, prototype `q`):

      (Σ_k x0[r,k]²  +  x2[0,q])  −  2 · Σ_k x0[r,k] · x1[q,k].

  Read at the exact values every step is what it says: the lane sum over the last axis is the sum over its 768 coordinates;
  its result, viewed as a column and broadcast along the prototype axis, is the row's value at every `q`; the row of squared
  norms broadcast along the row axis is its entry `q` at every `r`; the narrowing of `x0` to a sixteen-bit format changes
  nothing; and the matrix product into a zero accumulator, both operands contracted on their last axis, is the sum of the
  products over that axis.
-/
import proofs.«116088_j47107201302557_2_alg».proof.Proof.Gen.KernelIdeal.Skeleton
import proofs.«116088_j47107201302557_2_alg».proof.Proof.LibKeepdims
import proofs.«116088_j47107201302557_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Dist

open Idealize.ShloMosaic Idealize.ShloMosaic.ValueIdx Cert.KernelIdeal Cert.KernelIdeal.Gen

/-- The index the lane reduction inserts coordinate `k` into, at row `r`, is `(r, k)`. -/
theorem lift_row (h : S1024x768.Reduces [1] S1024) (r : Fin 1024) (k : Fin 768) :
    h.lift (ix1 r) k = ix2 r k :=
  funext fun a => Fin.ext (by match a with | ⟨0, _⟩ => rfl | ⟨1, _⟩ => rfl)

/-- A row's sum of squares: the lane sum of `v · v` at row `r` is `Σ_k v[r,k]²`. -/
theorem rowSq_apply (v : FVec Ideal S1024x768 .f32) (h : S1024x768.Reduces [1] S1024) (hφ : FKind.Formats .f32)
    (hacc : (0x00000000#32 : BitVec 32) = FKind.add.neutral .f32 hφ) (r : Fin 1024) :
    multiReduction .add [1] S1024 (mulf v v) 0x00000000#32 h hφ hacc (ix1 r) = ∑ k : Fin 768, v (ix2 r k) * v (ix2 r k) :=
  (Ideal.multiReduction_add_single (mulf v v) 0x00000000#32 h hφ hacc (ix1 r)).trans
    (Finset.sum_congr rfl fun k _ => by rw [lift_row h r k]; rfl)

/-- The left operand's index at output `i` keeps `i`'s row on its first (kept) axis … -/
theorem lhs_row (i : S1024x1024.Idx) (c : dot_S1024x768_S1024x768_S1024x1024_1_1_0_0_n_n.contr.Idx) :
    (dot_S1024x768_S1024x768_S1024x1024_1_1_0_0_n_n.lhsIdx i c 0).val = (i 0).val := by
  unfold DotDims.lhsIdx
  rw [dif_neg (show ¬(0 : Fin S1024x768.rank) ∈ dot_S1024x768_S1024x768_S1024x1024_1_1_0_0_n_n.lhsBatch by decide),
    dif_pos (show (0 : Fin S1024x768.rank) ∈ dot_S1024x768_S1024x768_S1024x1024_1_1_0_0_n_n.lhsNonContracting by decide)]
  rfl
/-- … and the right operand's keeps `i`'s column there: the right operand is indexed by prototype first. -/
theorem rhs_row (i : S1024x1024.Idx) (c : dot_S1024x768_S1024x768_S1024x1024_1_1_0_0_n_n.contr.Idx) :
    (dot_S1024x768_S1024x768_S1024x1024_1_1_0_0_n_n.rhsIdx i c 0).val = (i 1).val := by
  unfold DotDims.rhsIdx
  rw [dif_neg (show ¬(0 : Fin S1024x768.rank) ∈ dot_S1024x768_S1024x768_S1024x1024_1_1_0_0_n_n.rhsBatch by decide),
    dif_pos (show (0 : Fin S1024x768.rank) ∈ dot_S1024x768_S1024x768_S1024x1024_1_1_0_0_n_n.rhsNonContracting by decide)]
  rfl

/-- The matrix product at `(r, q)`: both operands are contracted on their last axis, so the left operand is read along
    its row `r` and the right along its row `q`. -/
theorem cross_apply (l r' : FVec Ideal S1024x768 .bf16) (r q : Fin 1024) :
    matmul dot_S1024x768_S1024x768_S1024x1024_1_1_0_0_n_n none l r' (constant S1024x1024 .f32 0x00000000#32) (ix2 r q)
      = ∑ k : Fin 768, l (ix2 r k) * r' (ix2 q k) := by
  refine (Ideal.matmul_constant_zero_apply dot_S1024x768_S1024x768_S1024x1024_1_1_0_0_n_n none l r' (ix2 r q)).trans ?_
  rw [← Equiv.sum_comp (contrEquiv1 dot_S1024x768_S1024x768_S1024x1024_1_1_0_0_n_n 768 rfl rfl).symm]
  refine Finset.sum_congr rfl fun k _ => ?_
  have hk := contrEquiv1_symm_val dot_S1024x768_S1024x768_S1024x1024_1_1_0_0_n_n 768 rfl rfl k
  have el : dot_S1024x768_S1024x768_S1024x1024_1_1_0_0_n_n.lhsIdx (ix2 r q)
      ((contrEquiv1 dot_S1024x768_S1024x768_S1024x1024_1_1_0_0_n_n 768 rfl rfl).symm k) = ix2 r k :=
    funext fun a => Fin.ext (by
      match a with
      | ⟨0, _⟩ => exact lhs_row _ _
      | ⟨1, _⟩ => exact (dot_S1024x768_S1024x768_S1024x1024_1_1_0_0_n_n.lhsIdx_val_of_single rfl _ _).trans hk)
  have er : dot_S1024x768_S1024x768_S1024x1024_1_1_0_0_n_n.rhsIdx (ix2 r q)
      ((contrEquiv1 dot_S1024x768_S1024x768_S1024x1024_1_1_0_0_n_n 768 rfl rfl).symm k) = ix2 q k :=
    funext fun a => Fin.ext (by
      match a with
      | ⟨0, _⟩ => exact rhs_row _ _
      | ⟨1, _⟩ => exact (dot_S1024x768_S1024x768_S1024x1024_1_1_0_0_n_n.rhsIdx_val_of_single rfl _ _).trans hk)
  rw [el, er]

/-- THE BODY'S STORE AT `(r, q)`: the row's sum of squares plus the prototype's squared norm, less twice their inner product. -/
theorem pay_apply (x0 : Vec Ideal S1024x768 .f32) (x1 : Vec Ideal S1024x768 .bf16) (x2 : Vec Ideal S1x1024 .f32) (r q : Fin 1024) :
    k0_pay1 (F := Ideal) x0 x1 x2 (ix2 r q)
      = ((∑ k : Fin 768, x0 (ix2 r k) * x0 (ix2 r k)) + x2 (ix2 (0 : Fin 1) q))
        - Ideal.ofBits .f32 0x40000000#32 * ∑ k : Fin 768, x0 (ix2 r k) * x1 (ix2 q k) := by
  unfold k0_pay1
  dsimp only
  rw [shapeCast_self x0, shapeCast_self x1, shapeCast_self x2]
  refine (subf_apply _ _ _).trans (congrArg₂ (· - ·) ((addf_apply _ _ _).trans (congrArg₂ (· + ·) ?_ ?_))
    ((mulf_apply _ _ _).trans (congrArg₂ (· * ·) rfl ?_)))
  · exact (broadcastTo_a1_ab_apply _ _ r q).trans ((shapeCast_a_a1_apply _ _ r 0).trans (rowSq_apply x0 _ _ _ r))
  · exact broadcastTo_1b_ab_apply x2 _ r q
  · exact cross_apply _ x1 r q

/-- So the store at `(r, q)` is the tile form `rowDist` of three arrays `A0`, `A1`, `A2` at an index `i`, as soon as the point's
    three blocks are those arrays read along `i`'s row (`h0`), along `i`'s prototype (`h1`) and at `i`'s prototype (`h2`). -/
theorem pay_eq_rowDist (X0 : Vec Ideal S1024x768 .f32) (X1 : Vec Ideal S1024x768 .bf16) (X2 : Vec Ideal S1x1024 .f32)
    (A0 : Vec Ideal S16384x768 .f32) (A1 : Vec Ideal S1024x768 .bf16) (A2 : Vec Ideal S1x1024 .f32)
    (r q : Fin 1024) (i : S16384x1024.Idx)
    (h0 : ∀ k : Fin 768, X0 (ix2 r k) = A0 (ix2 (i 0) k))
    (h1 : ∀ k : Fin 768, X1 (ix2 q k) = A1 (ix2 (i 1) k))
    (h2 : X2 (ix2 (0 : Fin 1) q) = A2 (ix2 (0 : Fin 1) (i 1))) :
    k0_pay1 (F := Ideal) X0 X1 X2 (ix2 r q) = Cert.Dist.rowDist A0 A1 A2 i := by
  rw [pay_apply]
  unfold Cert.Dist.rowDist
  simp only [h0, h1, h2]

end Cert.KernelIdeal.Dist

end
-- ==== Proof.Blocks.lean ====
/-
  From what one grid point writes back to the whole output array of the kernel call.

  The call runs over 16 points. Point `t` is handed rows `1024·t … 1024·t + 1023` of the flattened input (its first
  window moves with the point along the row axis), the whole codebook and the whole row of squared norms (their windows
  never move), and writes back rows `1024·t … 1024·t + 1023` of the `16384 × 1024` output (the output window moves as the
  first one does). What it writes is therefore the restriction to those rows of ONE function of the three arrays as the
  call finds them — the tile form `rowDist` — because the body's store at `(r, q)` depends only on row `r` of the tile,
  which is row `1024·t + r` of the input, and on prototype `q`. The 16 row bands tile the output (row `ρ` lies in band
  `ρ / 1024`), so after the call the output array IS that function.
-/
import proofs.«116088_j47107201302557_2_alg».proof.Proof.Gen.KernelIdeal.Frame
import proofs.«116088_j47107201302557_2_alg».proof.Proof.Payload

set_option maxRecDepth 16384

noncomputable section

namespace Cert.KernelIdeal.Dist

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ)

/-- Every access of the body is through the whole staging buffer: its offsets are zero on both axes. -/
theorem zero_offsets : (![0, 0] : Fin 2 → Nat) = fun _ => 0 := funext fun a => by fin_cases a <;> rfl

/-- The four windows' block indices, decided over the 16 points: the input tile and the output band sit at the point's
    own number on the row axis, everything else at block zero. -/
theorem block_indices : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is its band of `rowDist` of the three arrays as the call finds them. -/
theorem flushed_eq (c : Dev nD) (t : Fin cfg0.N) :
    (dats m 0 c).flushed 3 t = ((cfg0.win 3).blk t).view.read (Elt Ideal)
      (Cert.Dist.rowDist (V m c main_v0) (V m c main_v4) (V m c main_v3)) := by
  show (cfg0.win 3).cut (grid0.coords t) ((dats m 0 c).after 3 t) = _
  rw [after0_3]
  unfold out0_3
  rw [View.canon_unit_zero zero_offsets]
  simp only [View.ld_unit_zero (S := S1024x768) zero_offsets, View.ld_unit_zero (S := S1x1024) zero_offsets]
  obtain ⟨e00, e01, e10, e11, e20, e21, e30, e31⟩ := block_indices t
  funext j
  obtain ⟨r, q, rfl⟩ : ∃ (r q : Fin 1024), j = ix2 r q := ⟨j 0, j 1, eq_ix2 j⟩
  refine pay_eq_rowDist (iblk m c 0 t) (iblk m c 1 t) (iblk m c 2 t) (V m c main_v0) (V m c main_v4) (V m c main_v3) r q
    (((cfg0.win 3).blk t).view.emb (ix2 r q)) (fun k => ?_) (fun k => ?_) ?_
  · -- the tile's row `r` is the input's row under the output band's row `r`
    show V m c main_v0 (((cfg0.win 0).blk t).view.emb (ix2 r k)) = V m c main_v0 (ix2 ((((cfg0.win 3).blk t).view.emb (ix2 r q)) 0) k)
    refine congrArg (V m c main_v0) (funext fun a => Fin.ext ?_)
    match a with
    | ⟨0, _⟩ =>
      show win0_0.index t (0 : Fin 2) * 1024 + 1 * r.val = win0_3.index t (0 : Fin 2) * 1024 + 1 * r.val
      omega
    | ⟨1, _⟩ =>
      show win0_0.index t (1 : Fin 2) * 768 + 1 * k.val = k.val
      omega
  · -- the codebook block is the whole codebook: its row `q` is the row under the output band's column `q`
    show V m c main_v4 (((cfg0.win 1).blk t).view.emb (ix2 q k)) = V m c main_v4 (ix2 ((((cfg0.win 3).blk t).view.emb (ix2 r q)) 1) k)
    refine congrArg (V m c main_v4) (funext fun a => Fin.ext ?_)
    match a with
    | ⟨0, _⟩ =>
      show win0_1.index t (0 : Fin 2) * 1024 + 1 * q.val = win0_3.index t (1 : Fin 2) * 1024 + 1 * q.val
      omega
    | ⟨1, _⟩ =>
      show win0_1.index t (1 : Fin 2) * 768 + 1 * k.val = k.val
      omega
  · -- and so is the row of squared norms
    show V m c main_v3 (((cfg0.win 2).blk t).view.emb (ix2 (0 : Fin 1) q)) = V m c main_v3 (ix2 (0 : Fin 1) ((((cfg0.win 3).blk t).view.emb (ix2 r q)) 1))
    refine congrArg (V m c main_v3) (funext fun a => Fin.ext ?_)
    match a with
    | ⟨0, _⟩ =>
      show win0_2.index t (0 : Fin 2) * 1 + 1 * 0 = 0
      omega
    | ⟨1, _⟩ =>
      show win0_2.index t (1 : Fin 2) * 1024 + 1 * q.val = win0_3.index t (1 : Fin 2) * 1024 + 1 * q.val
      omega

/-- An index of the output is in point `t`'s band iff each coordinate is in the band's range on its axis. -/
theorem mem_band (t : Fin cfg0.N) (i : S16384x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v5).slice (win0_3.rect t)).set ↔ _
  rw [View.set_slice_whole, Rect.mem_set_unit]
  exact Iff.rfl

/-- THE BANDS TILE THE OUTPUT: row `ρ` is in the band of point `ρ / 1024`, which is written back like every point. -/
theorem bands_cover (i : S16384x1024.Idx) :
    ∃ t : Fin cfg0.N, (cfg0.win 3).flush t = true ∧ i ∈ ((cfg0.win 3).blk t).view.set := by
  have hi0 : (i 0).val < 16384 := (i 0).isLt
  have hi1 : (i 1).val < 1024 := (i 1).isLt
  have hN : grid0.N = 16 := N_0
  have ht : (i 0).val / 1024 < grid0.N := by omega
  obtain ⟨-, -, -, -, -, -, e30, e31⟩ := block_indices ⟨(i 0).val / 1024, ht⟩
  refine ⟨⟨(i 0).val / 1024, ht⟩, flush0_3 _, ?_⟩
  rw [mem_band]
  intro a
  match a with
  | ⟨0, _⟩ =>
    show win0_3.index ⟨(i 0).val / 1024, ht⟩ (0 : Fin 2) * 1024 ≤ (i 0).val
      ∧ (i 0).val < win0_3.index ⟨(i 0).val / 1024, ht⟩ (0 : Fin 2) * 1024 + 1024
    have e : win0_3.index ⟨(i 0).val / 1024, ht⟩ (0 : Fin 2) = (i 0).val / 1024 := e30
    omega
  | ⟨1, _⟩ =>
    show win0_3.index ⟨(i 0).val / 1024, ht⟩ (1 : Fin 2) * 1024 ≤ (i 1).val
      ∧ (i 1).val < win0_3.index ⟨(i 0).val / 1024, ht⟩ (1 : Fin 2) * 1024 + 1024
    omega

/-- THE OUTPUT ARRAY AFTER THE CALL is `rowDist` of the three arrays as the call finds them. -/
theorem output_eq (c : Dev nD) :
    (dats m 0 c).arrAt 3 cfg0.N = Cert.Dist.rowDist (V m c main_v0) (V m c main_v4) (V m c main_v3) :=
  (dats m 0 c).arrAt_eq_of_cover 3 _ (fun t _ => flushed_eq m c t) bands_cover

end Cert.KernelIdeal.Dist

end
-- ==== Proof.Host.lean ====
/-
  The host operations around the kernel call, read at an index.

  Before the call the program flattens the input (8 × 2048 rows become 16384: row `b · 2048 + t` of the flat array is row
  (b, t) of the input, the two having the same row-major position), narrows the codebook to a sixteen-bit format (no
  change at the exact values) and computes the prototypes' squared norms — the sum over the last axis of the codebook
  times itself, started from the zero word — laid out as one row. After the call it un-flattens the `16384 × 1024` output
  to `8 × 2048 × 1024`, again position for position.
-/
import proofs.«116088_j47107201302557_2_alg».proof.Proof.Gen.KernelIdeal.Frame
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Dist

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- The two arguments as launched on core `c`: the input and the codebook. -/
abbrev argX (c : Dev nD) : Vec Ideal S8x2048x768 .f32 := m ((c : Thread nD τ).loc main_arg0)
abbrev argP (c : Dev nD) : Vec Ideal S1024x768 .f32 := m ((c : Thread nD τ).loc main_arg1)

/-! ## Before the call -/

/-- The call's first array is the input flattened. -/
theorem found_flat (c : Dev nD) :
    (V m c main_v0 : Vec Ideal S16384x768 .f32) = shapeCast S16384x768 (argX m c) shapeCasts_S8x2048x768_S16384x768 := by
  show StableHlo.after hostOps0 (fun b => m (c, b)) (Proc.devRef .tc main_v0) = _
  after_results
  rfl

/-- Its second is the codebook narrowed. -/
theorem found_codebook (c : Dev nD) :
    V m c main_v4 = truncf (F := Ideal) (s := S1024x768) (φ := .f32) .bf16 (argP m c) bitsLt_bf16_f32 := by
  show StableHlo.after hostOps0 (fun b => m (c, b)) (Proc.devRef .tc main_v4) = _
  after_results

/-- Its third is the row of the prototypes' squared norms. -/
theorem found_norms (c : Dev nD) :
    (V m c main_v3 : Vec Ideal S1x1024 .f32) = broadcastInDim S1x1024 ![1] bcast_S1024_S1x1024_1
      (Host.reduceAdd (F := Ideal) (mulf (argP m c) (argP m c))
        (constant (F := Ideal) S_ .f32 0x00000000#32) reducesTo_S1024x768_S1024_d1 h_S_) := by
  show StableHlo.after hostOps0 (fun b => m (c, b)) (Proc.devRef .tc main_v3) = _
  after_results

/-- Row `ρ = b · 2048 + t` of the flattened input is row (b, t) of the input. -/
theorem flat_apply (c : Dev nD) (b : Fin 8) (t : Fin 2048) (ρ : Fin 16384) (hρ : ρ.val = b.val * 2048 + t.val) (k : Fin 768) :
    V m c main_v0 (ix2 ρ k) = argX m c (ix3 b t k) := by
  rw [found_flat]
  exact shapeCast_apply _ _ (ix2 ρ k) (ix3 b t k) (by
    rw [Shape.rowMajor_val_three, Shape.rowMajor_val_two]
    show (b.val * 2048 + t.val) * 768 + k.val = ρ.val * 768 + k.val
    rw [hρ])

/-- The narrowed codebook is the codebook. -/
theorem codebook_apply (c : Dev nD) (i : S1024x768.Idx) :
    V m c main_v4 i = argP m c i := by
  rw [found_codebook]
  rfl

/-- The host's row sum of `y · y` at prototype `q`: its initial value plus `Σ_k y[q,k]²`. -/
theorem hostRowSq_apply (y : FVec Ideal S1024x768 .f32) (init : FVec Ideal S_ .f32) (h' : S1024x768.ReducesTo [1] S1024)
    (hS : 0 < S_.numel) (q : Fin 1024) :
    Host.reduceAdd (F := Ideal) (mulf y y) init h' hS (ix1 q)
      = init (Shape.Idx.first hS) + ∑ k : Fin 768, y (ix2 q k) * y (ix2 q k) := by
  simp only [Host.reduceAdd, Ideal.hostReduceAdd_def]
  rw [Ideal.hostReduceAdd_single h' (by decide)]
  refine congrArg (_ + ·) (Finset.sum_congr rfl fun k _ => ?_)
  exact congrArg (mulf y y) (funext fun a => Fin.ext (by match a with | ⟨0, _⟩ => rfl | ⟨1, _⟩ => rfl))

/-- The norm row at prototype `q`: the zero word plus the prototype's sum of squares. -/
theorem norms_apply (c : Dev nD) (q : Fin 1024) :
    V m c main_v3 (ix2 (0 : Fin 1) q)
      = Ideal.ofBits .f32 0x00000000#32 + ∑ k : Fin 768, argP m c (ix2 q k) * argP m c (ix2 q k) := by
  rw [found_norms]
  refine (broadcastInDim_apply _ bcast_S1024_S1x1024_1 _ (ix2 (0 : Fin 1) q) (ix1 q) (fun a => ?_)).trans ?_
  · match a with
    | ⟨0, _⟩ => show q.val = if (1024 : Nat) = 1 then 0 else q.val; rw [if_neg (by decide)]
  · exact hostRowSq_apply _ _ _ _ q

/-! ## After the call -/

/-- The program's result is the call's output array un-flattened. -/
theorem tail_eq (c : Dev nD) :
    Pipeline.afterTail₀ cfgs (dats m) 0 (V0 m) [hostOps1] c main_v6
      = shapeCast S8x2048x1024 ((dats m 0 c).arrAt 3 cfg0.N) shapeCasts_S16384x1024_S8x2048x1024 := by
  unfold Pipeline.afterTail₀
  show StableHlo.after hostOps1 _ (Proc.devRef .tc main_v6) = _
  after_results
  refine funext fun i => ?_
  show shapeCast S8x2048x1024 (Pipeline.withArrays spec0 c (V0 m c) (fun w => (dats m 0 c).arrAt w cfg0.N)
    (Proc.devRef .tc (Pipeline.arrRef spec0 3))) shapeCasts_S16384x1024_S8x2048x1024 i = _
  rw [Pipeline.withArrays_arr spec0 launch0.win.arr_inj c _ _ 3]

/-- Entry (b, t, q) of an un-flattened `16384 × 1024` array is its entry (b · 2048 + t, q). -/
theorem unflatten_apply (A : S16384x1024.Idx → EReal) (h : S16384x1024.ShapeCasts S8x2048x1024) (b : Fin 8) (t : Fin 2048)
    (q : Fin 1024) (ρ : Fin 16384) (hρ : ρ.val = b.val * 2048 + t.val) :
    shapeCast S8x2048x1024 A h (ix3 b t q) = A (ix2 ρ q) :=
  shapeCast_apply A h (ix3 b t q) (ix2 ρ q) (by
    rw [Shape.rowMajor_val_three, Shape.rowMajor_val_two]
    show ρ.val * 1024 + q.val = (b.val * 2048 + t.val) * 1024 + q.val
    rw [hρ])

end Cert.KernelIdeal.Dist

end
-- ==== Proof.KernelValue.lean ====
/-
  The kernel program's run, read as a value. The frame run leaves the call's output array at what the 16 points wrote back,
  which is the tile form `rowDist` of the three arrays the call finds; the program's result is that array un-flattened. At
  (b, t, q) it is therefore `rowDist` at (b · 2048 + t, q), and there the flattened input's row is the input's row (b, t), the
  narrowed codebook is the codebook, and the norm entry is `0 + Σ_k p[q,k]²`: the result is `sqDist` of the two arguments.
-/
import proofs.«116088_j47107201302557_2_alg».proof.Proof.Blocks
import proofs.«116088_j47107201302557_2_alg».proof.Proof.Host

set_option maxRecDepth 16384

noncomputable section

namespace Cert.KernelIdeal.Dist

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- THE PROGRAM'S RESULT after the run is `sqDist` of its two arguments. -/
theorem result_eq (c : Dev nD) :
    Pipeline.afterTail₀ cfgs (dats m) 0 (V0 m) [hostOps1] c main_v6 = Cert.Dist.sqDist (argX m c) (argP m c) := by
  rw [tail_eq, output_eq]
  funext j
  obtain ⟨b, t, q, rfl⟩ : ∃ (b : Fin 8) (t : Fin 2048) (q : Fin 1024), j = ix3 b t q := ⟨j 0, j 1, j 2, eq_ix3 j⟩
  have hb : b.val < 8 := b.isLt
  have ht : t.val < 2048 := t.isLt
  have hρ : b.val * 2048 + t.val < 16384 := by omega
  refine (unflatten_apply _ _ b t q ⟨b.val * 2048 + t.val, hρ⟩ rfl).trans ?_
  exact Cert.Dist.rowDist_eq_sqDist _ _ _ (argX m c) (argP m c) (ix2 ⟨b.val * 2048 + t.val, hρ⟩ q) (ix3 b t q)
    (fun k => flat_apply m c b t ⟨b.val * 2048 + t.val, hρ⟩ rfl k) (fun k => codebook_apply m c (ix2 q k)) (norms_apply m c q)

/-- The frame run re-posted: the result at `sqDist` of the arguments, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v6) = Cert.Dist.sqDist (argX m c) (argP m c)
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v6 (Pipeline.mem_restRefs_of main_v6 (by decide) (by decide))).trans (result_eq m c),
      ((h c).2 main_arg1 (Pipeline.mem_restRefs_of main_arg1 (by decide) (by decide))).trans (W_main_arg1 m (dats m) c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Dist

end
-- ==== Proof.RefValue.lean ====
/-
  The reference computes the same function. Read one operation at a time at an index (b, t, q): the sum over the last axis
  of `x · x`, started from the zero word, kept as a column and broadcast along the prototype axis, is `0 + Σ_k x[b,t,k]²` at
  every `q`; the sum over the last axis of `p · p`, started from the zero word, broadcast along the two row axes, is
  `0 + Σ_k p[q,k]²` at every (b, t); the contraction of `x`'s last axis with `p`'s last axis is `Σ_k x[b,t,k] · p[q,k]`; and
  the result is the first two added, less the splat of the word for 2 times the third. Adding zero changes nothing, and
  what is left is `sqDist` as written.
-/
import proofs.«116088_j47107201302557_2_alg».proof.Proof.Gen.ReferenceIdeal.Read
import proofs.«116088_j47107201302557_2_alg».proof.Proof.Spec

noncomputable section

open scoped BigOperators

namespace Cert.ReferenceIdeal.Dist

open Idealize.ShloMosaic Idealize.ShloMosaic.ValueIdx
open Cert.ReferenceIdeal Cert.ReferenceIdeal.Gen Cert.ReferenceIdeal.Read

/-- THE REFERENCE'S RESULT, as a function of its two arguments, is `sqDist`. -/
theorem result_eq (x0 : (⟨S8x2048x768, .f32⟩ : BufTy).Contents (Elt Ideal)) (x1 : (⟨S1024x768, .f32⟩ : BufTy).Contents (Elt Ideal)) :
    val_main_v12 (F := Ideal) x0 x1 = Cert.Dist.sqDist x0 x1 := by
  funext i
  -- the rows the three sums run along, named by coordinates
  have ex : ∀ k : Fin 768, idx_main_v1 (idx_main_v2 (idx_main_v7 i)) k = ix3 (i 0) (i 1) k := fun k =>
    funext fun a => Fin.ext (by match a with | ⟨0, _⟩ => rfl | ⟨1, _⟩ => rfl | ⟨2, _⟩ => rfl)
  have ep : ∀ k : Fin 768, idx_main_v4 (idx_main_v6 (idx_main_v8 i)) k = ix2 (i 2) k := fun k =>
    funext fun a => Fin.ext (by match a with | ⟨0, _⟩ => rfl | ⟨1, _⟩ => rfl)
  have el : ∀ k : Fin 768, lidx_main_v5 i k = ix3 (i 0) (i 1) k := fun k =>
    funext fun a => Fin.ext (by match a with | ⟨0, _⟩ => rfl | ⟨1, _⟩ => rfl | ⟨2, _⟩ => rfl)
  have er : ∀ k : Fin 768, ridx_main_v5 i k = ix2 (i 2) k := fun k =>
    funext fun a => Fin.ext (by match a with | ⟨0, _⟩ => rfl | ⟨1, _⟩ => rfl)
  rw [val_main_v12_apply, val_main_v9_apply, val_main_v7_apply, val_main_v2_apply, val_main_v1_apply, val_main_v8_apply,
    val_main_v6_apply, val_main_v4_apply, val_main_v11_apply, val_main_v10_apply, val_main_v5_apply]
  simp only [val_main_v0_apply, val_main_v3_apply, val_main_cst_apply, val_main_cst_0_apply, val_main_cst_1_apply, ex, ep, el, er]
  show ((Ideal.ofBits .f32 0x00000000#32 + ∑ k : Fin 768, x0 (ix3 (i 0) (i 1) k) * x0 (ix3 (i 0) (i 1) k))
      + (Ideal.ofBits .f32 0x00000000#32 + ∑ k : Fin 768, x1 (ix2 (i 2) k) * x1 (ix2 (i 2) k)))
      - Ideal.ofBits .f32 0x40000000#32 * ∑ k : Fin 768, x0 (ix3 (i 0) (i 1) k) * x1 (ix2 (i 2) k) = _
  rw [Ideal.ofBits_zero_f32, zero_add, zero_add]
  rfl

end Cert.ReferenceIdeal.Dist

end
-- ==== Proof.lean ====
/-
  The kernel computes squared distances from 16384 input rows to 1024 prototypes as ‖x‖² + ‖p‖² − 2 x·p: a host prefix
  flattens the input and precomputes the prototypes' squared norms, a call over 16 row tiles forms each tile's row norms,
  adds the prototype norms and subtracts twice the tile–codebook product, and a host reshape restores the batch axes. The
  reference computes the same three terms with whole-array operations, in the same grouping.

  At the exact values both results are ONE function of the two arguments, `Cert.Dist.sqDist` (Proof/Spec.lean):
  the kernel's by reading the body's store at an element (Proof/Payload.lean), the 16 row bands as the whole output array
  (Proof/Blocks.lean), the host operations around the call (Proof/Host.lean) and their composition (Proof/KernelValue.lean);
  the reference's by reading its operations at an index (Proof/RefValue.lean). The only law between the two spellings is that
  a sum started from the zero word is the sum; nothing depends on the inputs being finite. The sixteen-bit narrowing of the
  matrix product's operands is the identity at the exact values, so the idealization rewrote no operation and `preserves`
  holds trivially. The three frames are the generated frame runs (the reference's is its generated run, result dropped).
-/
import proofs.«116088_j47107201302557_2_alg».proof.Defs
import proofs.«116088_j47107201302557_2_alg».proof.Proof.Gen.Kernel
import proofs.«116088_j47107201302557_2_alg».proof.Proof.Gen.Kernel.Skeleton
import proofs.«116088_j47107201302557_2_alg».proof.Proof.Gen.Kernel.Launch
import proofs.«116088_j47107201302557_2_alg».proof.Proof.Gen.Kernel.Points
import proofs.«116088_j47107201302557_2_alg».proof.Proof.Gen.Kernel.Frame
import proofs.«116088_j47107201302557_2_alg».proof.Proof.Gen.KernelIdeal
import proofs.«116088_j47107201302557_2_alg».proof.Proof.Gen.KernelIdeal.Skeleton
import proofs.«116088_j47107201302557_2_alg».proof.Proof.Gen.KernelIdeal.Launch
import proofs.«116088_j47107201302557_2_alg».proof.Proof.Gen.KernelIdeal.Points
import proofs.«116088_j47107201302557_2_alg».proof.Proof.Gen.KernelIdeal.Frame
import proofs.«116088_j47107201302557_2_alg».proof.Proof.Gen.ReferenceIdeal
import proofs.«116088_j47107201302557_2_alg».proof.Proof.Gen.ReferenceIdeal.Run
import proofs.«116088_j47107201302557_2_alg».proof.Proof.Gen.ReferenceIdeal.Read
import proofs.«116088_j47107201302557_2_alg».proof.Proof.Gen.Pre_finite_inputs
import proofs.«116088_j47107201302557_2_alg».proof.Proof.KernelValue
import proofs.«116088_j47107201302557_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the two arguments both programs end with their first result at `sqDist` of those
    arguments, and both return the codebook unchanged as their second. -/
theorem algebraic : Cert.algebraic_KernelIdeal_ReferenceIdeal := by
  intro m ρ m' ρ' _ hagree
  refine ⟨fun c => Cert.Dist.sqDist (Cert.KernelIdeal.Dist.argX m c) (Cert.KernelIdeal.Dist.argP m c),
    fun c => m ((c.tc : Thread Cert.KernelIdeal.nD Cert.KernelIdeal.τ).loc Cert.KernelIdeal.main_arg1),
    Cert.KernelIdeal.Dist.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v12_eq, Cert.ReferenceIdeal.Dist.result_eq, (hagree c).1, (hagree c).2]
  · rw [(h c).2.1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
